-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S128x64x64 .f32
  ∧ IdealRules.sign_bit.Statement Cert.KernelIdeal.S128x64x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : IVec S8192x64 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S1x1 : Shape := ⟨2, ![1, 1]⟩
abbrev S128x64 : Shape := ⟨2, ![128, 64]⟩
abbrev S128x64x1 : Shape := ⟨3, ![128, 64, 1]⟩
abbrev S128x1x64 : Shape := ⟨3, ![128, 1, 64]⟩
abbrev S128x64x64 : Shape := ⟨3, ![128, 64, 64]⟩
abbrev S64x64 : Shape := ⟨2, ![64, 64]⟩
abbrev S1x64x64 : Shape := ⟨3, ![1, 64, 64]⟩
abbrev S128x1 : Shape := ⟨2, ![128, 1]⟩
abbrev S128x1x1 : Shape := ⟨3, ![128, 1, 1]⟩
abbrev S1x1x1 : Shape := ⟨3, ![1, 1, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S8192x64, .f32⟩
  | .hbm, ⟨1, _⟩ => ⟨S8192x64, .i32⟩
  | .hbm, ⟨2, _⟩ => ⟨S1x1, .f32⟩
  | .hbm, ⟨3, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S128x64, .i32⟩
  | .local _ .vmem, ⟨3, _⟩ => ⟨S128x64, .i32⟩
  | .local _ .vmem, ⟨4, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S128x64_S128x64_0_0 : ∀ a, (![0, 0] : Fin 2 → Nat) a + S128x64.size a ≤ S128x64.size a
  h_S128x64 : 0 < S128x64.numel
  shapeCasts_S128x64_S128x64x1 : S128x64.ShapeCasts S128x64x1
  shapeCasts_S128x64_S128x1x64 : S128x64.ShapeCasts S128x1x64
  broadcasts_S128x64x1_S128x64x64 : S128x64x1.Broadcasts S128x64x64
  broadcasts_S128x1x64_S128x64x64 : S128x1x64.Broadcasts S128x64x64
  natLt_1_32 : 1 < 32
  iota_S64x64_d0_w32 : S64x64.Iotas .tc 32 [0]
  iota_S64x64_d1_w32 : S64x64.Iotas .tc 32 [1]
  shapeCasts_S64x64_S1x64x64 : S64x64.ShapeCasts S1x64x64
  broadcasts_S1x64x64_S128x64x64 : S1x64x64.Broadcasts S128x64x64
  reduces_S128x64x64_S128x64 : S128x64x64.Reduces [2] S128x64
  reduces_S128x64x1_S128x1 : S128x64x1.Reduces [1] S128x1
  shapeCasts_S128x1_S128x1x1 : S128x1.ShapeCasts S128x1x1
  reduces_S128x1x1_S1x1 : S128x1x1.Reduces [0] S1x1
  shapeCasts_S1x1_S1x1x1 : S1x1.ShapeCasts S1x1x1
  shapeCasts_S1x1x1_S1x1 : S1x1x1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S8192x64.size a
  hwx0_0 : ∀ i : grid0.Coords, EltTy.bits .f32 = 32 ∨ (Rect.block (s := S8192x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S8192x64.size a
  hwx0_1 : ∀ i : grid0.Coords, EltTy.bits .i32 = 32 ∨ (Rect.block (s := S8192x64) S128x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x64x1 : Shape := ⟨3, ![8192, 64, 1]⟩
abbrev S8192x1x64 : Shape := ⟨3, ![8192, 1, 64]⟩
abbrev S8192x64x64 : Shape := ⟨3, ![8192, 64, 64]⟩
abbrev S_ : Shape := ⟨0, ![]⟩
abbrev S64x64 : Shape := ⟨2, ![64, 64]⟩
abbrev S1x64x64 : Shape := ⟨3, ![1, 64, 64]⟩

abbrev nBuf : Space → Nat
  | .hbm => 68
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .i32⟩
  | .hbm, ⟨2, _⟩ => ⟨S8192x64, .f32⟩
  | .hbm, ⟨3, _⟩ => ⟨S8192x64x1, .f32⟩
  | .hbm, ⟨4, _⟩ => ⟨S8192x1x64, .f32⟩
  | .hbm, ⟨5, _⟩ => ⟨S8192x64x64, .f32⟩
  | .hbm, ⟨6, _⟩ => ⟨S8192x64x64, .f32⟩
  | .hbm, ⟨7, _⟩ => ⟨S8192x64x64, .f32⟩
  | .hbm, ⟨8, _⟩ => ⟨S8192x64x1, .f32⟩
  | .hbm, ⟨9, _⟩ => ⟨S8192x1x64, .f32⟩
  | .hbm, ⟨10, _⟩ => ⟨S8192x64x64, .f32⟩
  | .hbm, ⟨11, _⟩ => ⟨S8192x64x64, .f32⟩
  | .hbm, ⟨12, _⟩ => ⟨S8192x64x64, .f32⟩
  | .hbm, ⟨13, _⟩ => ⟨S_, .i32⟩
  | .hbm, ⟨14, _⟩ => ⟨S8192x64, .i32⟩
  | .hbm, ⟨15, _⟩ => ⟨S8192x64, .i1⟩
  | .hbm, ⟨16, _⟩ => ⟨S8192x64x1, .i1⟩
  | .hbm, ⟨17, _⟩ => ⟨S8192x1x64, .i1⟩
  | .hbm, ⟨18, _⟩ => ⟨S8192x64x64, .i1⟩
  | .hbm, ⟨19, _⟩ => ⟨S8192x64x64, .i1⟩
  | .hbm, ⟨20, _⟩ => ⟨S8192x64x64, .i1⟩
  | .hbm, ⟨21, _⟩ => ⟨S_, .i32⟩
  | .hbm, ⟨22, _⟩ => ⟨S8192x64, .i32⟩
  | .hbm, ⟨23, _⟩ => ⟨S8192x64, .i1⟩
  | .hbm, ⟨24, _⟩ => ⟨S8192x64x1, .i1⟩
  | .hbm, ⟨25, _⟩ => ⟨S8192x1x64, .i1⟩
  | .hbm, ⟨26, _⟩ => ⟨S8192x64x64, .i1⟩
  | .hbm, ⟨27, _⟩ => ⟨S8192x64x64, .i1⟩
  | .hbm, ⟨28, _⟩ => ⟨S8192x64x64, .i1⟩
  | .hbm, ⟨29, _⟩ => ⟨S_, .f32⟩
  | .hbm, ⟨30, _⟩ => ⟨S_, .f32⟩
  | .hbm, ⟨31, _⟩ => ⟨S8192x64x64, .f32⟩
  | .hbm, ⟨32, _⟩ => ⟨S8192x64x64, .f32⟩
  | .hbm, ⟨33, _⟩ => ⟨S8192x64x64, .f32⟩
  | .hbm, ⟨34, _⟩ => ⟨S_, .f32⟩
  | .hbm, ⟨35, _⟩ => ⟨S8192x64x64, .f32⟩
  | .hbm, ⟨36, _⟩ => ⟨S8192x64x64, .f32⟩
  | .hbm, ⟨37, _⟩ => ⟨S8192x64x64, .f32⟩
  | .hbm, ⟨38, _⟩ => ⟨S_, .f32⟩
  | .hbm, ⟨39, _⟩ => ⟨S8192x64x64, .f32⟩
  | .hbm, ⟨40, _⟩ => ⟨S8192x64x64, .f32⟩
  | .hbm, ⟨41, _⟩ => ⟨S8192x64x64, .f32⟩
  | .hbm, ⟨42, _⟩ => ⟨S8192x64x64, .f32⟩
  | .hbm, ⟨43, _⟩ => ⟨S8192x64x64, .f32⟩
  | .hbm, ⟨44, _⟩ => ⟨S8192x64x64, .f32⟩
  | .hbm, ⟨45, _⟩ => ⟨S8192x64x64, .f32⟩
  | .hbm, ⟨46, _⟩ => ⟨S_, .f32⟩
  | .hbm, ⟨47, _⟩ => ⟨S8192x64x64, .f32⟩
  | .hbm, ⟨48, _⟩ => ⟨S8192x64x64, .f32⟩
  | .hbm, ⟨49, _⟩ => ⟨S8192x64x64, .f32⟩
  | .hbm, ⟨50, _⟩ => ⟨S_, .f32⟩
  | .hbm, ⟨51, _⟩ => ⟨S64x64, .f32⟩
  | .hbm, ⟨52, _⟩ => ⟨S64x64, .i32⟩
  | .hbm, ⟨53, _⟩ => ⟨S_, .i32⟩
  | .hbm, ⟨54, _⟩ => ⟨S64x64, .i32⟩
  | .hbm, ⟨55, _⟩ => ⟨S64x64, .i32⟩
  | .hbm, ⟨56, _⟩ => ⟨S64x64, .i32⟩
  | .hbm, ⟨57, _⟩ => ⟨S64x64, .i1⟩
  | .hbm, ⟨58, _⟩ => ⟨S_, .f32⟩
  | .hbm, ⟨59, _⟩ => ⟨S64x64, .f32⟩
  | .hbm, ⟨60, _⟩ => ⟨S64x64, .f32⟩
  | .hbm, ⟨61, _⟩ => ⟨S1x64x64, .f32⟩
  | .hbm, ⟨62, _⟩ => ⟨S8192x64x64, .f32⟩
  | .hbm, ⟨63, _⟩ => ⟨S8192x64x64, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v25 : Ref sig .tc := ⟨.hbm, 33, rfl⟩
abbrev main_cst_2 : Ref sig .tc := ⟨.hbm, 34, rfl⟩
abbrev main_call1_v0 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call2_cst : Ref sig .tc := ⟨.hbm, 46, rfl⟩
abbrev main_call2_v0 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_call3_v0 : Ref sig .tc := ⟨.hbm, 52, rfl⟩
abbrev main_call3_c : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_cst : Ref sig .tc := ⟨.hbm, 58, rfl⟩
abbrev main_call3_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  bcast_S8192x64_S8192x64x1_0_1 : S8192x64.BroadcastsInDim S8192x64x1 (![0, 1] : Fin 2 → Fin S8192x64x1.rank)
  bcast_S8192x64_S8192x1x64_0_2 : S8192x64.BroadcastsInDim S8192x1x64 (![0, 2] : Fin 2 → Fin S8192x1x64.rank)
  bcast_S8192x64x1_S8192x64x64_0_1_2 : S8192x64x1.BroadcastsInDim S8192x64x64 (![0, 1, 2] : Fin 3 → Fin S8192x64x64.rank)
  bcast_S8192x1x64_S8192x64x64_0_1_2 : S8192x1x64.BroadcastsInDim S8192x64x64 (![0, 1, 2] : Fin 3 → Fin S8192x64x64.rank)
  bcast_S_S8192x64 : S_.BroadcastsInDim S8192x64 (![] : Fin 0 → Fin S8192x64.rank)
  bcast_S_S8192x64x64 : S_.BroadcastsInDim S8192x64x64 (![] : Fin 0 → Fin S8192x64x64.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S8192x64x64_0_1_2 : S1x64x64.BroadcastsInDim S8192x64x64 (![0, 1, 2] : Fin 3 → Fin S8192x64x64.rank)
  reducesTo_S8192x64x64_S_d0_1_2 : S8192x64x64.ReducesTo [0, 1, 2] S_
  h_S_ : 0 < S_.numel

variable [Facts₀]

class Facts : Prop extends Facts₀ where

variable [Facts]
-- ==== Proof.CaseValues.lean ====
/-
  What each of the body's three control cases leaves in the result's staging buffer, as a value.

  The first grid point stores zero, then stores the block's sum added to what it reads back (the zero); a middle point stores
  the block's sum added to the running value it finds; the last point does the same and then stores the quotient of what it
  reads back by the pair count. Each case's stores cover the one-element buffer, so reading it back gives the last store's
  value, whose loads are the whole input blocks and the buffer's earlier contents.
-/
import proofs.«119797_j40166534152819_2_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- One point's step: the block's sum, from the two input blocks, added to the running value `acc`. -/
abbrev step (x0 : Vec F S128x64 .f32) (x1 : Vec F S128x64 .i32) (acc : Vec F S1x1 .f32) : Vec F S1x1 .f32 :=
  k0_pay7 (k0_pay3 x0) (k0_pay4 x1) (k0_pay5 x1) (k0_pay6 (F := F)) acc

/-- A middle point leaves the step from the running value it found. -/
theorem out_B (c : Dev nD) (i : grid0.Coords) (a1 : Memref sig .tc .vmem S128x64 .f32) (h1 : a1.IsWhole) (a2 : Memref sig .tc .vmem S128x64 .i32) (h2 : a2.IsWhole) (a3 : Memref sig .tc .vmem S1x1 .f32) (h3 : a3.IsWhole) (hc0 : ¬cond0_0 i) (hc1 : ¬cond0_1 i)
    (x0 : Vec F S128x64 .f32) (x1 : Vec F S128x64 .i32) (xo2 : Vec F S1x1 .f32) :
    out0_B_2 c i a1 h1 a2 h2 a3 h3 hc0 hc1 x0 x1 xo2 = step x0 x1 xo2 := by
  unfold out0_B_2
  rw [View.read_writes_eq_canon _ _ _ (cover0_B_2 c i a1 h1 a2 h2 a3 h3 hc0 hc1 x0 x1 xo2)]
  unfold kernelRun0_B
  dsimp only
  sl_unfold_words
  rw [View.canon_unit_zero hz]
  simp only [View.readAt_eq_ld, h1.read_unread, h2.read_unread, h3.read_unread, View.ld_unit_zero (S := S128x64) hz, View.ld_unit_zero (S := S1x1) hz]

/-- The first point leaves the step from zero: it stores zero and reads it back. -/
theorem out_A (c : Dev nD) (i : grid0.Coords) (a1 : Memref sig .tc .vmem S128x64 .f32) (h1 : a1.IsWhole) (a2 : Memref sig .tc .vmem S128x64 .i32) (h2 : a2.IsWhole) (a3 : Memref sig .tc .vmem S1x1 .f32) (h3 : a3.IsWhole) (hc0 : cond0_0 i) (hc1 : ¬cond0_1 i)
    (x0 : Vec F S128x64 .f32) (x1 : Vec F S128x64 .i32) :
    out0_A_2 c i a1 h1 a2 h2 a3 h3 hc0 hc1 x0 x1 = step x0 x1 (k0_pay2 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S128x64) hz]

/-- The last point leaves the quotient of its step by the pair count: it stores the step, reads it back and divides. -/
theorem out_C (c : Dev nD) (i : grid0.Coords) (a1 : Memref sig .tc .vmem S128x64 .f32) (h1 : a1.IsWhole) (a2 : Memref sig .tc .vmem S128x64 .i32) (h2 : a2.IsWhole) (a3 : Memref sig .tc .vmem S1x1 .f32) (h3 : a3.IsWhole) (hc0 : ¬cond0_0 i) (hc1 : cond0_1 i)
    (x0 : Vec F S128x64 .f32) (x1 : Vec F S128x64 .i32) (xo2 : Vec F S1x1 .f32) :
    out0_C_2 c i a1 h1 a2 h2 a3 h3 hc0 hc1 x0 x1 xo2 = k0_pay1 (step x0 x1 xo2) := by
  unfold out0_C_2
  rw [View.read_writes_eq_canon _ _ _ (cover0_C_2 c i a1 h1 a2 h2 a3 h3 hc0 hc1 x0 x1 xo2)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S128x64) hz, View.ld_unit_zero (S := S1x1) hz]

end Cert.KernelIdeal.CaseValues

end
-- ==== Proof.PairTerm.lean ====
/-
  The pairwise hinge ranking term of one row, on the extended reals.

  For two positions `i`, `j` of a row with scores `xi`, `xj` and integer ranks `ti`, `tj` the term is
    2 · w(ti, tj) · max (sign (xi − xj) · sign (ti − tj) − (xi − xj) · (ti − tj)) 0 · [i < j],
  the weight `w` being 5 when either rank is 1, else 0 when both ranks are at least 10, else 1. A row's loss is the sum of the
  term over all pairs of positions. This module states the term once and shows that two other spellings of its factors are the
  same numbers: the weight written with 0/1 indicators added and multiplied and compared against zero instead of Boolean
  `or` / `and`, and the strict-upper-triangle mask written as the indicator of `i < j` converted to a float instead of a
  selection on `i ≥ j`.
-/
import Idealize.ShloMosaic.PureOps.Ideal
import Idealize.ShloMosaic.PureOps.Ideal.Laws
import Idealize.ShloMosaic.PureOps.IdealRules
import Idealize.ShloMosaic.Lib.ValueIdx

noncomputable section

namespace Cert.RankLoss

open Idealize.ShloMosaic

/-- A rank, an integer word read signed, as an extended real. -/
def rk (t : BitVec 32) : EReal := ((t.toInt : ℝ) : EReal)

/-- The pair's weight: 5 if either rank is 1; else 0 if both ranks are at least 10; else 1. -/
def weight (ti tj : BitVec 32) : EReal :=
  Scalar.select (IntOp.ori (IntOp.cmpi .eq ti 1#32) (IntOp.cmpi .eq tj 1#32)) (Ideal.ofBits .f32 0x40A00000#32)
    (Scalar.select (IntOp.andi (IntOp.cmpi .sge ti 10#32) (IntOp.cmpi .sge tj 10#32)) (Ideal.ofBits .f32 0x00000000#32)
      (Ideal.ofBits .f32 0x3F800000#32))

/-- The strict upper triangle: 1 when `i < j`, else 0. -/
def upper (i j : Fin 64) : EReal := if i.val < j.val then 1 else 0

/-- The hinge of a predicted difference `p` against a true difference `d`: `max (sign p · sign d − p · d) 0`. -/
def hinge (p d : EReal) : EReal := max (Ideal.sign p * Ideal.sign d - p * d) (Ideal.ofBits .f32 0x00000000#32)

/-- The term of the pair `(i, j)`. -/
def cell (xi xj : EReal) (ti tj : BitVec 32) (i j : Fin 64) : EReal :=
  Ideal.ofBits .f32 0x40000000#32 * weight ti tj * hinge (xi - xj) (rk ti - rk tj) * upper i j

/-- A row's loss: the sum of its pairs' terms. -/
def rowLoss (xr : Fin 64 → EReal) (tr : Fin 64 → BitVec 32) : EReal :=
  ∑ i : Fin 64, ∑ j : Fin 64, cell (xr i) (xr j) (tr i) (tr j) i j

/-! ## The indicator spellings -/

/-- A one-bit word widened to 32 bits and read as a signed integer is 0 or 1. -/
theorem ind_zero : ((((0#1 : BitVec 1).setWidth 32).toInt : ℝ) : EReal) = 0 := by
  have h : ((0#1 : BitVec 1).setWidth 32).toInt = 0 := by decide
  rw [h]; simp
theorem ind_one : ((((1#1 : BitVec 1).setWidth 32).toInt : ℝ) : EReal) = 1 := by
  have h : ((1#1 : BitVec 1).setWidth 32).toInt = 1 := by decide
  rw [h]; simp

/-- The sum of two indicators is above zero exactly when either bit is set. -/
theorem either_eq (p q : BitVec 1) :
    Ideal.cmp .ogt (((((p.setWidth 32).toInt : ℝ) : EReal)) + ((((q.setWidth 32).toInt : ℝ) : EReal)))
        (Ideal.ofBits .f32 0x00000000#32) = IntOp.ori p q := by
  rw [Ideal.ofBits_zero_f32]
  rcases BitVec.eq_zero_or_eq_one p with h | h <;> rcases BitVec.eq_zero_or_eq_one q with h' | h' <;> subst h <;> subst h' <;>
    simp only [ind_zero, ind_one, Ideal.cmp, IntOp.ori] <;> norm_num <;> decide

/-- The product of two indicators is above zero exactly when both bits are set. -/
theorem both_eq (p q : BitVec 1) :
    Ideal.cmp .ogt (((((p.setWidth 32).toInt : ℝ) : EReal)) * ((((q.setWidth 32).toInt : ℝ) : EReal)))
        (Ideal.ofBits .f32 0x00000000#32) = IntOp.andi p q := by
  rw [Ideal.ofBits_zero_f32]
  rcases BitVec.eq_zero_or_eq_one p with h | h <;> rcases BitVec.eq_zero_or_eq_one q with h' | h' <;> subst h <;> subst h' <;>
    simp only [ind_zero, ind_one, Ideal.cmp, IntOp.andi] <;> norm_num <;> decide

/-- The weight written with indicator arithmetic is the weight. -/
theorem weight_indicators (ti tj : BitVec 32) :
    Scalar.select (Ideal.cmp .ogt
        ((((((IntOp.cmpi .eq ti 1#32).setWidth 32).toInt : ℝ) : EReal)) + (((((IntOp.cmpi .eq tj 1#32).setWidth 32).toInt : ℝ) : EReal)))
        (Ideal.ofBits .f32 0x00000000#32)) (Ideal.ofBits .f32 0x40A00000#32)
      (Scalar.select (Ideal.cmp .ogt
          ((((((IntOp.cmpi .sge ti 10#32).setWidth 32).toInt : ℝ) : EReal)) * (((((IntOp.cmpi .sge tj 10#32).setWidth 32).toInt : ℝ) : EReal)))
          (Ideal.ofBits .f32 0x00000000#32)) (Ideal.ofBits .f32 0x00000000#32) (Ideal.ofBits .f32 0x3F800000#32))
      = weight ti tj := by
  rw [either_eq, both_eq]; rfl

/-! ## The mask spellings -/

/-- Positions below 64 compare as signed 32-bit words as they do as numbers. -/
theorem slt_pos : ∀ i j : Fin 64, IntOp.cmpi .slt (BitVec.ofNat 32 i.val) (BitVec.ofNat 32 j.val) = BitVec.ofBool (decide (i.val < j.val)) := by
  decide +kernel
theorem sge_pos : ∀ i j : Fin 64,
    IntOp.cmpi .sge (IntOp.addi (BitVec.ofNat 32 i.val) 0#32) (BitVec.ofNat 32 j.val) = BitVec.ofBool (decide (j.val ≤ i.val)) := by
  decide +kernel

/-- The indicator of `i < j`, converted to a float, is the strict upper triangle. -/
theorem upper_indicator (i j : Fin 64) :
    (((((IntOp.cmpi .slt (BitVec.ofNat 32 i.val) (BitVec.ofNat 32 j.val)).setWidth 32).toInt : ℝ) : EReal)) = upper i j := by
  rw [slt_pos]; unfold upper
  by_cases h : i.val < j.val
  · rw [if_pos h, decide_eq_true h]; exact ind_one
  · rw [if_neg h, decide_eq_false h]; exact ind_zero

/-- Selecting 0 where `i ≥ j` and 1 elsewhere is the strict upper triangle. -/
theorem upper_select (i j : Fin 64) :
    Scalar.select (IntOp.cmpi .sge (IntOp.addi (BitVec.ofNat 32 i.val) 0#32) (BitVec.ofNat 32 j.val))
      (Ideal.ofBits .f32 0x00000000#32) (Ideal.ofBits .f32 0x3F800000#32) = upper i j := by
  rw [sge_pos]; unfold upper
  by_cases h : i.val < j.val
  · rw [if_pos h, decide_eq_false (by omega)]
    exact (ValueIdx.select_zero _ _).trans (IdealRules.sign_bit.ideal_onePat .f32)
  · rw [if_neg h, decide_eq_true (by omega)]
    exact (ValueIdx.select_one _ _).trans Ideal.ofBits_zero_f32

end Cert.RankLoss

end
-- ==== Proof.LibLayoutRank3.lean ====
/-
  Three re-layings between rank 2 and rank 3, read at an index given by its coordinates.

  A product `p[i, j, l] = u[i, j] · v[j, l]` over a common three-axis index set is formed by giving `u` a trailing axis of
  extent one and `v` a leading axis of extent one, then repeating each along its new axis. Read at `(i, j, l)`:
    * `[a, b] → [a, b, 1]`, a cast: the entry at `(i, j, 0)` is the operand's at `(i, j)` (same row-major position);
    * `[a, b, 1] → [a, b, c]`, a broadcast: the entry at `(i, j, l)` is the operand's at `(i, j, 0)`;
    * `[1, b, c] → [a, b, c]`, a broadcast: the entry at `(i, j, l)` is the operand's at `(0, j, l)`.
  (The cast `[a, b] → [1, a, b]` is the library's `shapeCast_ab_1ab_apply`.) The extents are arbitrary naturals; on an axis
  whose extent happens to be one the only coordinate is 0, which is what a broadcast reads there anyway.
-/
import Idealize.ShloMosaic.Lib.Pipeline.Value
import Idealize.ShloMosaic.Lib.ValueIdx

namespace Cert.LayoutRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

end Cert.LayoutRank3
-- ==== Proof.LibMiddleUnitAxis.lean ====
/-
  A general layout lemma: a unit axis inserted in the MIDDLE of a rank-2 shape.
-/
import Idealize.ShloMosaic.Lib.Pipeline.Value
import Idealize.ShloMosaic.Lib.ValueIdx

namespace Idealize.ShloMosaic.ValueIdx

variable {α : Type}

/-- An `[a, b]` array cast to `[a, 1, b]` reads, at `(i, u, j)`, the operand at `(i, j)`, whatever the unit
    coordinate `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.ValueIdx
-- ==== Proof.LibOuterPair.lean ====
/-
  The two halves of an outer pairing `x[:, :, None] ∘ x[:, None, :]`, read at an index given by its coordinates.

  A rank-2 array `A` of extents `[a, b]` enters an all-pairs computation over `[a, b, b]` twice: once with a trailing unit axis,
  repeated along it, so that position `(r, i, j)` reads `A (r, i)`; once with a unit axis in the middle, repeated along it, so that
  position `(r, i, j)` reads `A (r, j)`. Also here: the broadcast `[a, 1, c] → [a, b, c]` by itself, and a rank-3 array whose
  three extents are one cast to the rank-2 array of the same kind.
-/
import proofs.«119797_j40166534152819_2_alg».proof.Proof.LibLayoutRank3
import proofs.«119797_j40166534152819_2_alg».proof.Proof.LibMiddleUnitAxis
import Idealize.ShloMosaic.Lib.Pipeline.Value
import Idealize.ShloMosaic.Lib.ValueIdx

namespace Cert.OuterPair

open Idealize.ShloMosaic Idealize.ShloMosaic.ValueIdx Cert.LayoutRank3

variable {α : Type}

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- The left half of the pairing: `A` with a trailing unit axis, repeated along it, reads `A (r, i)` at `(r, i, j)`. -/
theorem left_apply {a b c : ℕ} (A : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (r : Fin a) (i : Fin b) (j : Fin c) :
    broadcastTo ⟨3, ![a, b, c]⟩ (shapeCast ⟨3, ![a, b, 1]⟩ A h) h' (ix3 r i j) = A (ix2 r i) :=
  (broadcastTo_ab1_abc_apply _ h' r i j).trans (shapeCast_ab_ab1_apply A h r i 0)

/-- The right half of the pairing: `A` with a unit axis in the middle, repeated along it, reads `A (r, j)` at `(r, i, j)`. -/
theorem right_apply {a b c : ℕ} (A : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (r : Fin a) (i : Fin b) (j : Fin c) :
    broadcastTo ⟨3, ![a, b, c]⟩ (shapeCast ⟨3, ![a, 1, c]⟩ A h) h' (ix3 r i j) = A (ix2 r j) :=
  (broadcastTo_a1c_abc_apply _ h' r i j).trans (shapeCast_ab_a1b_apply A h r 0 j)

/-- A `[1, 1, 1]` array cast to `[1, 1]`: the one entry. -/
theorem shapeCast_111_11_apply (x : (⟨3, ![1, 1, 1]⟩ : Shape).Idx → α)
    (h : (⟨3, ![1, 1, 1]⟩ : Shape).ShapeCasts ⟨2, ![1, 1]⟩) :
    shapeCast ⟨2, ![1, 1]⟩ x h (ix2 (0 : Fin 1) (0 : Fin 1)) = x (ix3 (0 : Fin 1) (0 : Fin 1) (0 : Fin 1)) :=
  shapeCast_apply x h _ _ (by rw [Shape.rowMajor_val_three, Shape.rowMajor_val_two]; rfl)

end Cert.OuterPair
-- ==== Proof.BlockSum.lean ====
/-
  What one grid point adds: the sum, over the 128 rows of its block, of each row's pairwise loss.

  The body's arithmetic is one pure term of the two loaded blocks `x` (scores, `[128, 64]`) and `t` (ranks, `[128, 64]`) and of
  the running value `acc` (`[1, 1]`). Read at the one index of its result it is
      acc + ∑ r < 128, ∑ i < 64, ∑ j < 64, cell (x r i) (x r j) (t r i) (t r j) i j:
  the three lane sums (over `j`, then `i`, then `r`, each into a shape that keeps a unit axis) are plain sums on the extended
  reals; the all-pairs arrays are `x`, `t` and the two rank indicators laid out along a trailing and along a middle unit axis and
  repeated; the printed sign is the sign; the weight with indicator arithmetic is the weight; and the triangle mask is the
  indicator of `i < j` converted to a float.
-/
import proofs.«119797_j40166534152819_2_alg».proof.Proof.Gen.KernelIdeal.Skeleton
import proofs.«119797_j40166534152819_2_alg».proof.Proof.PairTerm
import proofs.«119797_j40166534152819_2_alg».proof.Proof.LibOuterPair
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockSum

open Cert.KernelIdeal Cert.KernelIdeal.Gen Cert.RankLoss Cert.LayoutRank3 Cert.OuterPair
open Idealize.ShloMosaic Idealize.ShloMosaic.ValueIdx

/-! ## The three lane sums -/

/-- The sum over the last axis of a `[128, 64, 64]` array, at `(r, i)`. -/
theorem sum_last (w : FVec Ideal S128x64x64 .f32) (h : S128x64x64.Reduces [2] S128x64) (hφ : FKind.Formats .f32)
    (hacc : (0x00000000#32 : BitVec 32) = FKind.add.neutral .f32 hφ) (r : Fin 128) (i : Fin 64) :
    multiReduction .add [2] S128x64 w 0x00000000#32 h hφ hacc (ix2 r i) = ∑ j : Fin 64, w (ix3 r i j) :=
  (Ideal.multiReduction_add_single w _ h hφ hacc (ix2 r i)).trans
    (Finset.sum_congr rfl fun j _ => congrArg w (funext fun a => match a with
      | ⟨0, _⟩ => rfl | ⟨1, _⟩ => rfl | ⟨2, _⟩ => rfl))

/-- The sum over the middle axis of a `[128, 64, 1]` array, at `(r, 0)`. -/
theorem sum_mid (w : FVec Ideal S128x64x1 .f32) (h : S128x64x1.Reduces [1] S128x1) (hφ : FKind.Formats .f32)
    (hacc : (0x00000000#32 : BitVec 32) = FKind.add.neutral .f32 hφ) (r : Fin 128) (u : Fin 1) :
    multiReduction .add [1] S128x1 w 0x00000000#32 h hφ hacc (ix2 r u) = ∑ i : Fin 64, w (ix3 r i u) :=
  (Ideal.multiReduction_add_single w _ h hφ hacc (ix2 r u)).trans
    (Finset.sum_congr rfl fun i _ => congrArg w (funext fun a => match a with
      | ⟨0, _⟩ => rfl | ⟨1, _⟩ => rfl | ⟨2, _⟩ => rfl))

/-- The sum over the first axis of a `[128, 1, 1]` array, at `(0, 0)`. -/
theorem sum_first (w : FVec Ideal S128x1x1 .f32) (h : S128x1x1.Reduces [0] S1x1) (hφ : FKind.Formats .f32)
    (hacc : (0x00000000#32 : BitVec 32) = FKind.add.neutral .f32 hφ) (u u' : Fin 1) :
    multiReduction .add [0] S1x1 w 0x00000000#32 h hφ hacc (ix2 u u') = ∑ r : Fin 128, w (ix3 r u u') :=
  (Ideal.multiReduction_add_single w _ h hφ hacc (ix2 u u')).trans
    (Finset.sum_congr rfl fun r _ => congrArg w (funext fun a => match a with
      | ⟨0, _⟩ => rfl | ⟨1, _⟩ => rfl | ⟨2, _⟩ => rfl))

/-! ## The pointwise factors -/

/-- The hinge as the body spells it — the sign of each difference as a selection on its absolute value and on its
    being below zero — is the hinge. -/
theorem hinge_spelt (p d : FVec Ideal S128x64x64 .f32) (y : S128x64x64.Idx) :
    maximumf (subf (mulf
        (select (cmpf .ogt (absf p) (broadcast S128x64x64 (Scalar.ofBits .f32 0x00000000#32)))
          (select (cmpf .olt p (constant S128x64x64 .f32 0x00000000#32)) (constant S128x64x64 .f32 0xBF800000#32) (constant S128x64x64 .f32 0x3F800000#32)) p)
        (select (cmpf .ogt (absf d) (broadcast S128x64x64 (Scalar.ofBits .f32 0x00000000#32)))
          (select (cmpf .olt d (constant S128x64x64 .f32 0x00000000#32)) (constant S128x64x64 .f32 0xBF800000#32) (constant S128x64x64 .f32 0x3F800000#32)) d))
        (mulf p d)) (broadcast S128x64x64 (Scalar.ofBits .f32 0x00000000#32)) y
      = hinge (p y) (d y) := by
  unfold hinge
  rw [← Ideal.jnp_sign_eq_sign_f32 (p y), ← Ideal.jnp_sign_eq_sign_f32 (d y)]
  rfl

/-- The triangle mask as the body builds it — two coordinate arrays compared, the bit widened and converted, a leading
    unit axis added and repeated over the rows — is the strict upper triangle at `(i, j)`, at every row. -/
theorem mask_spelt (r : Fin 128) (i j : Fin 64) :
    broadcastTo S128x64x64 (shapeCast S1x64x64
        (sitofp .f32 (extui 32 (cmpi .slt (iota .tc S64x64 32 [0] iota_S64x64_d0_w32) (iota .tc S64x64 32 [1] iota_S64x64_d1_w32)) natLt_1_32) : FVec Ideal S64x64 .f32)
        shapeCasts_S64x64_S1x64x64) broadcasts_S1x64x64_S128x64x64 (ix3 r i j) = upper i j := by
  refine (broadcastTo_1bc_abc_apply _ _ r i j).trans ?_
  refine (shapeCast_ab_1ab_apply _ _ 0 i j).trans ?_
  show ((((IntOp.cmpi .slt (iota .tc S64x64 32 [0] iota_S64x64_d0_w32 (ix2 i j)) (iota .tc S64x64 32 [1] iota_S64x64_d1_w32 (ix2 i j))).setWidth 32).toInt : ℝ) : EReal) = _
  rw [iota_single_apply, iota_single_apply]
  exact upper_indicator i j

/-! ## The body's sum, over its four all-pairs operands -/

/-- The stored value, over any four all-pairs arrays `p` (predicted differences), `d` (true differences), `w` (weights) and
    `two`: the running value plus the block's triple sum. -/
theorem pay7_apply (p d w two : FVec Ideal S128x64x64 .f32) (acc : Vec Ideal S1x1 .f32) :
    k0_pay7 p d w two acc (ix2 (0 : Fin 1) (0 : Fin 1))
      = acc (ix2 (0 : Fin 1) (0 : Fin 1)) + ∑ r : Fin 128, ∑ i : Fin 64, ∑ j : Fin 64,
          two (ix3 r i j) * w (ix3 r i j) * hinge (p (ix3 r i j)) (d (ix3 r i j)) * upper i j := by
  unfold k0_pay7
  refine (addf_apply _ _ _).trans ?_
  refine congrArg₂ (· + ·) (congrFun (shapeCast_self _ _) _) ?_
  refine (shapeCast_111_11_apply _ _).trans ?_
  refine (shapeCast_ab_ab1_apply _ _ 0 0 0).trans ?_
  refine (sum_first _ _ _ _ 0 0).trans ?_
  refine Finset.sum_congr rfl fun r _ => ?_
  refine (shapeCast_ab_ab1_apply _ _ r 0 0).trans ?_
  refine (sum_mid _ _ _ _ r 0).trans ?_
  refine Finset.sum_congr rfl fun i _ => ?_
  refine (shapeCast_ab_ab1_apply _ _ r i 0).trans ?_
  refine (sum_last _ _ _ _ r i).trans ?_
  refine Finset.sum_congr rfl fun j _ => ?_
  refine (mulf_apply _ _ _).trans ?_
  refine congrArg₂ (· * ·) ?_ (mask_spelt r i j)
  refine (mulf_apply _ _ _).trans ?_
  exact congrArg₂ (· * ·) (mulf_apply _ _ _) (hinge_spelt p d (ix3 r i j))

/-! ## The four operands, from the loaded blocks -/

/-- Predicted differences: `x r i − x r j`. -/
theorem pay3_apply (x : Vec Ideal S128x64 .f32) (r : Fin 128) (i j : Fin 64) :
    k0_pay3 x (ix3 r i j) = x (ix2 r i) - x (ix2 r j) := by
  unfold k0_pay3
  refine (subf_apply _ _ _).trans ?_
  exact congrArg₂ (· - ·) (left_apply _ _ _ r i j) (right_apply _ _ _ r i j)

/-- True differences: the ranks' difference, as numbers. -/
theorem pay4_apply (t : Vec Ideal S128x64 .i32) (r : Fin 128) (i j : Fin 64) :
    k0_pay4 (F := Ideal) t (ix3 r i j) = rk (t (ix2 r i)) - rk (t (ix2 r j)) := by
  unfold k0_pay4
  refine (subf_apply _ _ _).trans ?_
  exact congrArg₂ (· - ·) (left_apply _ _ _ r i j) (right_apply _ _ _ r i j)

/-- Weights: the body's indicator arithmetic gives the pair's weight. -/
theorem pay5_apply (t : Vec Ideal S128x64 .i32) (r : Fin 128) (i j : Fin 64) :
    k0_pay5 (F := Ideal) t (ix3 r i j) = weight (t (ix2 r i)) (t (ix2 r j)) := by
  unfold k0_pay5
  show Scalar.select (Ideal.cmp .ogt (_ + _) _) _ (Scalar.select (Ideal.cmp .ogt (_ * _) _) _ _) = _
  rw [left_apply, right_apply, left_apply, right_apply]
  exact weight_indicators (t (ix2 r i)) (t (ix2 r j))

/-- The factor two. -/
theorem pay6_apply (y : S128x64x64.Idx) : k0_pay6 (F := Ideal) y = Ideal.ofBits .f32 0x40000000#32 := rfl

/-! ## One point's step -/

/-- The body's stored value from the two blocks and the running value: the running value plus the block's rows' losses. -/
theorem step_apply (x : Vec Ideal S128x64 .f32) (t : Vec Ideal S128x64 .i32) (acc : Vec Ideal S1x1 .f32) :
    k0_pay7 (k0_pay3 x) (k0_pay4 t) (k0_pay5 t) (k0_pay6 (F := Ideal)) acc (ix2 (0 : Fin 1) (0 : Fin 1))
      = acc (ix2 (0 : Fin 1) (0 : Fin 1)) + ∑ r : Fin 128, rowLoss (fun i => x (ix2 r i)) (fun i => t (ix2 r i)) := by
  rw [pay7_apply]
  refine congrArg (_ + ·) (Finset.sum_congr rfl fun r _ => ?_)
  unfold rowLoss
  refine Finset.sum_congr rfl fun i _ => Finset.sum_congr rfl fun j _ => ?_
  rw [pay3_apply, pay4_apply, pay5_apply, pay6_apply]
  rfl

end Cert.KernelIdeal.BlockSum

end
-- ==== Proof.LibTileSum.lean ====
import Mathlib.Algebra.BigOperators.Fin
import Mathlib.Algebra.BigOperators.Intervals

/-!
# A sum over a range cut into tiles, the last one ragged

In any commutative additive monoid — the extended reals among them, where nothing beyond commutativity and
associativity of `+` is available — a sum over `k < T · B` is the sum over the `T` tiles of the sums over the
`B` positions inside each tile, and a summand that vanishes from `n` on may be summed to any bound past `n`.
Together: a contraction of length `n` walked in `T` tiles of `B ≥ n / T`, the overhang contributing zeros, is the
contraction.
-/

namespace TileSum

open Finset

variable {M : Type*} [AddCommMonoid M]

/-- A sum over `k < T · B` is the sum over the tiles `t < T` of the sums over the positions `j < B` of tile `t`. -/
theorem sum_range_tiles (g : ℕ → M) (B : ℕ) : ∀ T : ℕ, ∑ k ∈ range (T * B), g k = ∑ t ∈ range T, ∑ j ∈ range B, g (t * B + j)
  | 0 => by simp
  | T + 1 => by
    rw [Nat.succ_mul, sum_range_add, sum_range_tiles g B T, sum_range_succ]

/-- A summand that is zero from `n` on sums, to any bound `N ≥ n`, to its sum below `n`. -/
theorem sum_range_zero_tail (g : ℕ → M) {n N : ℕ} (h : n ≤ N) (hz : ∀ k, n ≤ k → g k = 0) :
    ∑ k ∈ range N, g k = ∑ k ∈ range n, g k := by
  obtain ⟨r, rfl⟩ := Nat.exists_eq_add_of_le h
  rw [sum_range_add, sum_eq_zero (fun x _ => hz (n + x) (Nat.le_add_right n x)), add_zero]

/-- A contraction over `Fin n` is the sum over `T` tiles of `B` positions of its summand extended by zero past `n`. -/
theorem sum_fin_eq_tiles {n T B : ℕ} (h : n ≤ T * B) (f : Fin n → M) :
    ∑ k : Fin n, f k = ∑ t ∈ range T, ∑ j ∈ range B, (if hk : t * B + j < n then f ⟨t * B + j, hk⟩ else 0) := by
  rw [← sum_range_tiles (fun k => if hk : k < n then f ⟨k, hk⟩ else 0) B T,
    sum_range_zero_tail _ h (fun k hk => dif_neg (Nat.not_lt.mpr hk)), ← Fin.sum_univ_eq_sum_range (fun k => if hk : k < n then f ⟨k, hk⟩ else 0) n]
  exact Fintype.sum_congr _ _ fun k => by rw [dif_pos k.isLt]

end TileSum
-- ==== Proof.Loss.lean ====
/-
  The whole loss, and its cut into the 64 blocks of 128 rows a grid walks.

  The loss of scores `x` and ranks `t` (both `[8192, 64]`) is the sum of the 8192 rows' pairwise losses, started from zero and
  divided by the pair count 8192 · 64 · 63 / 2 = 16515072 (the float word `0x4B7C0000`). Addition on the extended reals is
  commutative and associative, so the sum over the rows is the sum over 64 blocks of the sums over each block's 128 rows.
-/
import proofs.«119797_j40166534152819_2_alg».proof.Proof.PairTerm
import proofs.«119797_j40166534152819_2_alg».proof.Proof.LibTileSum

noncomputable section

namespace Cert.RankLoss

open Idealize.ShloMosaic Idealize.ShloMosaic.ValueIdx

/-- The arrays' index set. -/
abbrev Rows : Shape := ⟨2, ![8192, 64]⟩

/-- Row `b`'s loss. -/
def rowOf (x : Rows.Idx → EReal) (t : Rows.Idx → BitVec 32) (b : Fin 8192) : EReal :=
  rowLoss (fun i => x (ix2 b i)) (fun i => t (ix2 b i))

/-- Row number `k`'s loss, zero past the last row. -/
def rowN (x : Rows.Idx → EReal) (t : Rows.Idx → BitVec 32) (k : ℕ) : EReal :=
  if hk : k < 8192 then rowOf x t ⟨k, hk⟩ else 0

/-- Block `p`'s loss: its 128 rows'. -/
def blockLoss (x : Rows.Idx → EReal) (t : Rows.Idx → BitVec 32) (p : ℕ) : EReal :=
  ∑ j ∈ Finset.range 128, rowN x t (p * 128 + j)

/-- All rows' loss. -/
def total (x : Rows.Idx → EReal) (t : Rows.Idx → BitVec 32) : EReal := ∑ b : Fin 8192, rowOf x t b

/-- The rows' sum is the 64 blocks' sum. -/
theorem total_eq_blocks (x : Rows.Idx → EReal) (t : Rows.Idx → BitVec 32) :
    total x t = ∑ p ∈ Finset.range 64, blockLoss x t p :=
  TileSum.sum_fin_eq_tiles (n := 8192) (T := 64) (B := 128) (by norm_num) (rowOf x t)

/-- The loss: the rows' sum from zero, over the pair count. -/
def loss (x : Rows.Idx → EReal) (t : Rows.Idx → BitVec 32) : EReal :=
  Ideal.div (Ideal.ofBits .f32 0x00000000#32 + total x t) (Ideal.ofBits .f32 0x4B7C0000#32)

end Cert.RankLoss

end
-- ==== Proof.KernelValue.lean ====
/-
  The kernel computes the loss.

  The result's one-element staging buffer is carried from grid point to grid point and written back once, after the last.
  After point `n` it holds zero plus the losses of blocks `0 … n` (by induction on the point: the first point starts from the
  zero it stores, every later point adds its block's loss to what the point before left); block `p`'s rows are rows
  `128 p … 128 p + 127` of the arrays, so its loss is the `p`-th block of the whole sum. The last point divides by the pair
  count, the one write-back covers the one-element array, and the reshape to a scalar after the region reads that element.
-/
import proofs.«119797_j40166534152819_2_alg».proof.Proof.Gen.KernelIdeal.Frame
import proofs.«119797_j40166534152819_2_alg».proof.Proof.CaseValues
import proofs.«119797_j40166534152819_2_alg».proof.Proof.BlockSum
import proofs.«119797_j40166534152819_2_alg».proof.Proof.Loss
import Idealize.ShloMosaic.Lib.Pipeline.Value
import Idealize.ShloMosaic.Lib.StableHlo.Run
import Idealize.ShloMosaic.Lib.Tactic

noncomputable section

namespace Cert.KernelIdeal.KernelValue

open Cert.KernelIdeal Cert.KernelIdeal.Gen Cert.KernelIdeal.CaseValues Cert.KernelIdeal.BlockSum Cert.RankLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The scores and the ranks on core `c`. -/
abbrev X (c : Dev nD) : Rows.Idx → EReal := m ((c : Thread nD τ).loc main_arg0)
abbrev T (c : Dev nD) : Rows.Idx → BitVec 32 := m ((c : Thread nD τ).loc main_arg1)

/-! ## A block's rows are the arrays' rows -/

/-- The input windows walk the rows: block `t` starts at row block `t`, column block 0. -/
theorem idx_facts0 : ∀ t : Fin cfg0.N, win0_0.index t 0 = t.val ∧ win0_0.index t 1 = 0 :=
  (by decide +kernel : ∀ t : Fin grid0.N, win0_0.index t 0 = t.val ∧ win0_0.index t 1 = 0)
theorem idx_facts1 : ∀ t : Fin cfg0.N, win0_1.index t 0 = t.val ∧ win0_1.index t 1 = 0 :=
  (by decide +kernel : ∀ t : Fin grid0.N, win0_1.index t 0 = t.val ∧ win0_1.index t 1 = 0)

/-- Row `r` of the scores' block at point `t` is row `128 t + r` of the scores. -/
theorem iblk0_apply (c : Dev nD) (t : Fin cfg0.N) (r : Fin 128) (i : Fin 64) (h : t.val * 128 + r.val < 8192) :
    (iblk m c 0 t : Vec Ideal S128x64 .f32) (ix2 r i) = X m c (ix2 ⟨t.val * 128 + r.val, h⟩ i) := by
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index t 0 * 128 + 1 * r.val = t.val * 128 + r.val; rw [(idx_facts0 t).1]; omega
  | ⟨1, _⟩ => show win0_0.index t 1 * 64 + 1 * i.val = i.val; rw [(idx_facts0 t).2]; omega

/-- Row `r` of the ranks' block at point `t` is row `128 t + r` of the ranks. -/
theorem iblk1_apply (c : Dev nD) (t : Fin cfg0.N) (r : Fin 128) (i : Fin 64) (h : t.val * 128 + r.val < 8192) :
    (iblk m c 1 t : Vec Ideal S128x64 .i32) (ix2 r i) = T m c (ix2 ⟨t.val * 128 + r.val, h⟩ i) := by
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_1.index t 0 * 128 + 1 * r.val = t.val * 128 + r.val; rw [(idx_facts1 t).1]; omega
  | ⟨1, _⟩ => show win0_1.index t 1 * 64 + 1 * i.val = i.val; rw [(idx_facts1 t).2]; omega

/-- So the rows' losses of the blocks at point `t` sum to block `t`'s loss. -/
theorem block_eq (c : Dev nD) (t : Fin cfg0.N) (x : Vec Ideal S128x64 .f32) (y : Vec Ideal S128x64 .i32)
    (hx : ∀ (r : Fin 128) (i : Fin 64) (h : t.val * 128 + r.val < 8192), x (ix2 r i) = X m c (ix2 ⟨t.val * 128 + r.val, h⟩ i))
    (hy : ∀ (r : Fin 128) (i : Fin 64) (h : t.val * 128 + r.val < 8192), y (ix2 r i) = T m c (ix2 ⟨t.val * 128 + r.val, h⟩ i)) :
    ∑ r : Fin 128, rowLoss (fun i => x (ix2 r i)) (fun i => y (ix2 r i)) = blockLoss (X m c) (T m c) t.val := by
  have hN : t.val < 64 := lt_of_lt_of_eq t.isLt (show cfg0.N = 64 from N_0)
  unfold blockLoss
  rw [Finset.sum_range]
  refine Finset.sum_congr rfl fun r _ => ?_
  have h : t.val * 128 + r.val < 8192 := by have := r.isLt; omega
  unfold rowN
  rw [dif_pos h]
  unfold rowOf
  exact congrArg₂ rowLoss (funext fun i => hx r i h) (funext fun i => hy r i h)

/-! ## The running value -/

/-- The running value after point `n`, the division at the last point left out: the first point's step from the zero it
    stores, then each point's step from the value before. -/
def chain (c : Dev nD) : (n : ℕ) → n < cfg0.N → Vec Ideal S1x1 .f32
  | 0, h => step (iblk m c 0 ⟨0, h⟩) (iblk m c 1 ⟨0, h⟩) (k0_pay2 (F := Ideal))
  | n + 1, h => step (iblk m c 0 ⟨n + 1, h⟩) (iblk m c 1 ⟨n + 1, h⟩) (chain c n (Nat.lt_of_succ_lt h))

/-- It is zero plus the losses of the blocks walked so far. -/
theorem chain_apply (c : Dev nD) : ∀ (n : ℕ) (h : n < cfg0.N),
    chain m c n h (ix2 (0 : Fin 1) (0 : Fin 1))
      = Ideal.ofBits .f32 0x00000000#32 + ∑ p ∈ Finset.range (n + 1), blockLoss (X m c) (T m c) p
  | 0, h => by
    unfold chain
    refine (step_apply (iblk m c 0 ⟨0, h⟩) (iblk m c 1 ⟨0, h⟩) (k0_pay2 (F := Ideal))).trans ?_
    rw [block_eq m c ⟨0, h⟩ (iblk m c 0 ⟨0, h⟩) (iblk m c 1 ⟨0, h⟩) (iblk0_apply m c ⟨0, h⟩) (iblk1_apply m c ⟨0, h⟩),
      Finset.sum_range_one]
    rfl
  | n + 1, h => by
    unfold chain
    refine (step_apply (iblk m c 0 ⟨n + 1, h⟩) (iblk m c 1 ⟨n + 1, h⟩) (chain m c n (Nat.lt_of_succ_lt h))).trans ?_
    rw [block_eq m c ⟨n + 1, h⟩ (iblk m c 0 ⟨n + 1, h⟩) (iblk m c 1 ⟨n + 1, h⟩) (iblk0_apply m c ⟨n + 1, h⟩) (iblk1_apply m c ⟨n + 1, h⟩),
      chain_apply c n (Nat.lt_of_succ_lt h), Finset.sum_range_succ _ (n + 1), add_assoc]

/-- Before the last point the staging buffer holds the running value. -/
theorem outsAt_eq (c : Dev nD) : ∀ (n : ℕ) (h : n < cfg0.N), n < 63 → outsAt0 m c n h = chain m c n h
  | 0, h, _ => by
    rw [outsAt0_A m c ⟨0, h⟩ (Nat.zero_mod _) (by dsimp only; omega)]
    exact out_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ _ (iblk m c 0 ⟨0, h⟩) (iblk m c 1 ⟨0, h⟩)
  | n + 1, h, h63 => by
    have hN : cfg0.N = 64 := N_0
    have h0 : ¬(⟨n + 1, h⟩ : Fin cfg0.N).val % 64 = 0 := by dsimp only; omega
    have h1 : ¬(⟨n + 1, h⟩ : Fin cfg0.N).val % 64 = 63 := by dsimp only; omega
    rw [outsAt0_B m c ⟨n + 1, h⟩ h0 h1]
    refine (out_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ _ (iblk m c 0 ⟨n + 1, h⟩) (iblk m c 1 ⟨n + 1, h⟩) _).trans ?_
    show step _ _ (outsAt0 m c n _) = step _ _ (chain m c n _)
    rw [outsAt_eq c n (Nat.lt_of_succ_lt h) (by omega)]

/-- The last point. -/
def tLast : Fin cfg0.N := ⟨63, by rw [show cfg0.N = 64 from N_0]; decide⟩

/-- The loss, as the contents of the one-element result array. -/
abbrev result (c : Dev nD) : Buf (Elt Ideal) ((c : Thread nD τ).loc main_v0) := fun _ => loss (X m c) (T m c)

/-- After the last point the staging buffer holds the loss. -/
theorem outsAt_last (c : Dev nD) : outsAt0 m c tLast.val tLast.isLt = result m c := by
  have h0 : ¬tLast.val % 64 = 0 := by decide
  have h1 : tLast.val % 64 = 63 := by decide
  rw [outsAt0_C m c tLast h0 h1]
  refine (out_C (F := Ideal) c (grid0.coords tLast) (ms0_0 tLast) (hs0_0 tLast) (ms0_1 tLast) (hs0_1 tLast) (ms0_2 tLast) (hs0_2 tLast) _ _ (iblk m c 0 tLast) (iblk m c 1 tLast) _).trans ?_
  rw [outsAt_eq m c (tLast.val - 1) _ (by decide)]
  show k0_pay1 (chain m c 63 tLast.isLt) = result m c
  funext y
  obtain rfl : y = ix2 (0 : Fin 1) (0 : Fin 1) := funext fun a => match a with
    | ⟨0, _⟩ => Fin.ext (by have h : (y 0).val < 1 := (y 0).isLt; show (y 0).val = 0; omega)
    | ⟨1, _⟩ => Fin.ext (by have h : (y 1).val < 1 := (y 1).isLt; show (y 1).val = 0; omega)
  show Ideal.div (shapeCast S1x1 (chain m c 63 tLast.isLt) shapeCasts_S1x1_S1x1 (ix2 0 0)) (Ideal.ofBits .f32 0x4B7C0000#32) = loss (X m c) (T m c)
  rw [shapeCast_self, chain_apply m c 63 tLast.isLt, ← total_eq_blocks]
  rfl

end Cert.KernelIdeal.KernelValue

end
-- ==== Proof.KernelRun.lean ====
/-
  The kernel's run, read: its scalar result ends at the loss.

  The one write-back, after the last point, writes the staging buffer's value — the loss — to the one-element result array,
  which that block covers; the reshape after the region reads that element into the scalar result; the arguments are kept.
-/
import proofs.«119797_j40166534152819_2_alg».proof.Proof.KernelValue

noncomputable section

namespace Cert.KernelIdeal.KernelRun

open Cert.KernelIdeal Cert.KernelIdeal.Gen Cert.KernelIdeal.KernelValue Cert.RankLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The one write-back, at the last point, writes the loss: the block at `(0, 0)` of the `[1, 1]` array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2, outsAt_last]
  have hz' : (fun a => win0_2.index tLast a * main_v0.ty.shape.size a) = fun _ => 0 := funext fun a => by fin_cases a <;> decide +kernel
  exact (Memref.read_access_unit_zero (Elt Ideal) main_v0 hz' (fun a => by rw [congrFun hz' a]; simp) (result m c)).symm

/-- So the result array ends holding the loss: the last point's block covers it. -/
theorem final (c : Dev nD) : (dats m 0 c).arrAt 2 cfg0.N = result m c :=
  (dats m 0 c).arrAt_eq_of_cover 2 (result m c) (flushed_eq m c) fun i =>
    ⟨tLast, (flush0_2 tLast).mpr (by decide), by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The reshape after the region reads the array's one element into the scalar. -/
theorem tail_eq (c : Dev nD) :
    Pipeline.afterTail₀ cfgs (dats m) 0 (V0 m) [hostOps1] c main_v1 = fun _ => loss (X m c) (T m c) := by
  unfold Pipeline.afterTail₀
  show StableHlo.after hostOps1 _ (Proc.devRef .tc main_v1) = _
  after_results
  generalize hW : Pipeline.withArrays (cfgs 0).spec c (V0 m c) (fun w => (dats m 0 c).arrAt w (cfgs 0).N) (Proc.devRef .tc main_v0) = W
  have hR : W = result m c :=
    hW.symm.trans ((Pipeline.withArrays_arr spec0 launch0.win.arr_inj c (V0 m c) (fun w => (dats m 0 c).arrAt w cfg0.N) 2).trans (final m c))
  subst hR
  rfl

/-- The run, read: the scalar result at the loss, the arguments unchanged. -/
theorem run : θ_run defs (onTc (τ := τ) (main (F := Ideal))) ⟨m, fun _ => 0, ρ⟩ fun r => ∀ c : Dev nD,
      r.2.mem ((c : Thread nD τ).loc main_v1) = (fun _ => loss (X m c) (T m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.KernelRun

end
-- ==== Proof.LibSumIdx3.lean ====
/-
  A sum over a rank-3 index set is the triple sum over its coordinates (the rank-3 companion of the library's `sum_idx2`).
-/
import Idealize.ShloMosaic.Lib.ValueIdx

namespace Cert.SumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it, in any commutative additive monoid, is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.SumIdx3
-- ==== Proof.RefValue.lean ====
/-
  The reference computes the loss.

  Its all-pairs array, read at `(b, i, j)`, is the pair term of row `b`: each broadcast reads its operand at the coordinates it
  keeps, the weight is the Boolean selection, the sign is the sign, and `triu` selects zero where `i ≥ j`. Its one sum over all
  three axes is, on the extended reals, the triple sum over the coordinates, started from zero; and the quotient is the loss's.
-/
import proofs.«119797_j40166534152819_2_alg».proof.Proof.Gen.ReferenceIdeal.Read
import proofs.«119797_j40166534152819_2_alg».proof.Proof.Loss
import proofs.«119797_j40166534152819_2_alg».proof.Proof.LibSumIdx3

noncomputable section

namespace Cert.ReferenceIdeal.RefValue

open Cert.ReferenceIdeal Cert.ReferenceIdeal.Gen Cert.ReferenceIdeal.Read Cert.RankLoss Cert.SumIdx3
open Idealize.ShloMosaic Idealize.ShloMosaic.ValueIdx

/-! ## Where each broadcast reads -/

theorem at_left (b : Fin 8192) (i j : Fin 64) : idx_main_v1 (idx_main_v3 (ix3 b i j)) = ix2 b i :=
  funext fun a => match a with | ⟨0, _⟩ => rfl | ⟨1, _⟩ => rfl
theorem at_right (b : Fin 8192) (i j : Fin 64) : idx_main_v2 (idx_main_v4 (ix3 b i j)) = ix2 b j :=
  funext fun a => match a with | ⟨0, _⟩ => rfl | ⟨1, _⟩ => rfl
theorem at_left_t (b : Fin 8192) (i j : Fin 64) : idx_main_v6 (idx_main_v8 (ix3 b i j)) = ix2 b i :=
  funext fun a => match a with | ⟨0, _⟩ => rfl | ⟨1, _⟩ => rfl
theorem at_right_t (b : Fin 8192) (i j : Fin 64) : idx_main_v7 (idx_main_v9 (ix3 b i j)) = ix2 b j :=
  funext fun a => match a with | ⟨0, _⟩ => rfl | ⟨1, _⟩ => rfl
theorem at_left_w (b : Fin 8192) (i j : Fin 64) : idx_main_v13 (idx_main_v15 (ix3 b i j)) = ix2 b i :=
  funext fun a => match a with | ⟨0, _⟩ => rfl | ⟨1, _⟩ => rfl
theorem at_right_w (b : Fin 8192) (i j : Fin 64) : idx_main_v14 (idx_main_v16 (ix3 b i j)) = ix2 b j :=
  funext fun a => match a with | ⟨0, _⟩ => rfl | ⟨1, _⟩ => rfl
theorem at_left_g (b : Fin 8192) (i j : Fin 64) : idx_main_v20 (idx_main_v22 (ix3 b i j)) = ix2 b i :=
  funext fun a => match a with | ⟨0, _⟩ => rfl | ⟨1, _⟩ => rfl
theorem at_right_g (b : Fin 8192) (i j : Fin 64) : idx_main_v21 (idx_main_v23 (ix3 b i j)) = ix2 b j :=
  funext fun a => match a with | ⟨0, _⟩ => rfl | ⟨1, _⟩ => rfl
theorem at_mask (b : Fin 8192) (i j : Fin 64) : idx_main_v39 (idx_main_v40 (ix3 b i j)) = ix2 i j :=
  funext fun a => match a with | ⟨0, _⟩ => rfl | ⟨1, _⟩ => rfl

/-! ## The all-pairs array is the pair term -/

theorem pairs_apply (x : (⟨S8192x64, .f32⟩ : BufTy).Contents (Elt Ideal)) (t : (⟨S8192x64, .i32⟩ : BufTy).Contents (Elt Ideal))
    (b : Fin 8192) (i j : Fin 64) :
    val_main_v41 (F := Ideal) x t (ix3 b i j) = cell (x (ix2 b i)) (x (ix2 b j)) (t (ix2 b i)) (t (ix2 b j)) i j := by
  simp only [val_main_v41_apply, val_main_v36_apply, val_main_v40_apply, val_main_v39_apply, val_main_v38_apply,
    val_main_call3_v4_apply, val_main_call3_v2_apply, val_main_call3_v0_apply, val_main_call3_v1_apply, val_main_call3_c_apply,
    val_main_call3_v3_apply, val_main_call3_v5_apply, val_main_call3_cst_apply, val_main_v37_apply, val_main_cst_4_apply,
    val_main_v29_apply, val_main_v28_apply, val_main_cst_3_apply, val_main_v27_apply, val_main_v26_apply, val_main_v17_apply,
    val_main_v15_apply, val_main_v13_apply, val_main_v12_apply, val_main_v11_apply, val_main_c_apply, val_main_v16_apply,
    val_main_v14_apply, val_main_call1_v0_apply, val_main_cst_2_apply, val_main_v25_apply, val_main_v24_apply, val_main_v22_apply,
    val_main_v20_apply, val_main_v19_apply, val_main_v18_apply, val_main_c_0_apply, val_main_v23_apply, val_main_v21_apply,
    val_main_call0_v0_apply, val_main_cst_apply, val_main_call0_v1_apply, val_main_cst_1_apply, val_main_v35_apply,
    val_main_v34_apply, val_main_v32_apply, val_main_v30_apply, val_main_v5_apply, val_main_v3_apply, val_main_v1_apply,
    val_main_v4_apply, val_main_v2_apply, val_main_v31_apply, val_main_v10_apply, val_main_v8_apply, val_main_v6_apply,
    val_main_v0_apply, val_main_v9_apply, val_main_v7_apply, val_main_v33_apply, val_main_call2_v0_apply, val_main_call2_cst_apply,
    at_left, at_right, at_left_t, at_right_t, at_left_w, at_right_w, at_left_g, at_right_g, at_mask]
  unfold cell
  rw [← upper_select i j]
  rfl

/-! ## The result is the loss -/

theorem result_eq (x : (⟨S8192x64, .f32⟩ : BufTy).Contents (Elt Ideal)) (t : (⟨S8192x64, .i32⟩ : BufTy).Contents (Elt Ideal)) :
    val_main_v43 (F := Ideal) x t = fun _ => loss x t := by
  funext y
  rw [val_main_v43_apply, val_main_v42_apply, val_main_cst_5_apply, val_main_cst_6_apply, sum_idx3]
  unfold loss total rowOf rowLoss
  simp only [pairs_apply]
  rfl

end Cert.ReferenceIdeal.RefValue

end
-- ==== Proof.lean ====
/-
  A weighted pairwise hinge ranking loss, tiled over the rows and accumulated across a grid, against the plain whole-array form.

  For scores `x` and integer ranks `t`, both `[8192, 64]`, both programs compute
      ( ∑ b < 8192, ∑ i < j < 64, 2 · w(t b i, t b j) · max (sign (x b i − x b j) · sign (t b i − t b j) − (x b i − x b j) · (t b i − t b j)) 0 ) / 16515072
  on the extended reals, the weight `w` being 5 when either rank is 1, else 0 when both are at least 10, else 1. The kernel
  walks the rows in 64 blocks of 128, sums each block's pair terms one axis at a time and accumulates the block sums in a
  one-element buffer from a zero, dividing after the last block; the reference forms the `[8192, 64, 64]` array of pair terms
  and sums it at once. The two differ in how the weight, the sign and the triangle mask are spelt (the same numbers: PairTerm,
  BlockSum, RefValue) and in the grouping of one sum, which on the extended reals needs only that addition is commutative and
  associative (Loss); nothing here uses that the inputs are finite.

  The three frames are the generated ones (the reference's is its generated run with the result dropped); the two sign-bit
  rewrites of the idealization are the rule's own statement.
-/
import proofs.«119797_j40166534152819_2_alg».proof.Defs
import proofs.«119797_j40166534152819_2_alg».proof.Proof.Gen.Kernel
import proofs.«119797_j40166534152819_2_alg».proof.Proof.Gen.Kernel.Skeleton
import proofs.«119797_j40166534152819_2_alg».proof.Proof.Gen.Kernel.Launch
import proofs.«119797_j40166534152819_2_alg».proof.Proof.Gen.Kernel.Points
import proofs.«119797_j40166534152819_2_alg».proof.Proof.Gen.Kernel.Frame
import proofs.«119797_j40166534152819_2_alg».proof.Proof.Gen.KernelIdeal
import proofs.«119797_j40166534152819_2_alg».proof.Proof.Gen.KernelIdeal.Skeleton
import proofs.«119797_j40166534152819_2_alg».proof.Proof.Gen.KernelIdeal.Launch
import proofs.«119797_j40166534152819_2_alg».proof.Proof.Gen.KernelIdeal.Points
import proofs.«119797_j40166534152819_2_alg».proof.Proof.Gen.KernelIdeal.Frame
import proofs.«119797_j40166534152819_2_alg».proof.Proof.Gen.ReferenceIdeal
import proofs.«119797_j40166534152819_2_alg».proof.Proof.Gen.ReferenceIdeal.Run
import proofs.«119797_j40166534152819_2_alg».proof.Proof.Gen.ReferenceIdeal.Read
import proofs.«119797_j40166534152819_2_alg».proof.Proof.Gen.Pre_finite_inputs
import proofs.«119797_j40166534152819_2_alg».proof.Proof.KernelRun
import proofs.«119797_j40166534152819_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Each of the two sign-bit reads the idealization replaced — `1.0` carrying a difference's sign bit — is the selection
    printed in its place. -/
theorem preserves : Cert.preserves_Kernel_KernelIdeal :=
  ⟨IdealRules.sign_bit.statement Cert.KernelIdeal.S128x64x64 .f32, IdealRules.sign_bit.statement Cert.KernelIdeal.S128x64x64 .f32⟩

/-- Both runs end with the scalar result at the loss of the argument arrays, which agree. -/
theorem algebraic : Cert.algebraic_KernelIdeal_ReferenceIdeal := by
  intro m ρ m' ρ' _ hagree
  refine ⟨fun c _ => Cert.RankLoss.loss (Cert.KernelIdeal.KernelValue.X m c) (Cert.KernelIdeal.KernelValue.T m c),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
